-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x128 : Shape := ⟨2, ![4096, 128]⟩
abbrev S4096x128x32 : Shape := ⟨3, ![4096, 128, 32]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x4096x4096 .f32) (main_arg1 : FVec F S4096x128 .f32) (main_arg2 : IVec S4096x128x32 32) (main_arg3 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x4096x4096 : Shape := ⟨3, ![2, 4096, 4096]⟩
abbrev S4096x128 : Shape := ⟨2, ![4096, 128]⟩
abbrev S4096x128x32 : Shape := ⟨3, ![4096, 128, 32]⟩
abbrev S4096 : Shape := ⟨1, ![4096]⟩
abbrev S8192x4096 : Shape := ⟨2, ![8192, 4096]⟩
abbrev S128x4096 : Shape := ⟨2, ![128, 4096]⟩
abbrev S1x4096 : Shape := ⟨2, ![1, 4096]⟩
abbrev S2048x256 : Shape := ⟨2, ![2048, 256]⟩
abbrev S1024x8x32 : Shape := ⟨3, ![1024, 8, 32]⟩
abbrev S8x1024 : Shape := ⟨2, ![8, 1024]⟩
abbrev S1x1024 : Shape := ⟨2, ![1, 1024]⟩
abbrev S2048x1024 : Shape := ⟨2, ![2048, 1024]⟩
abbrev S1024x8 : Shape := ⟨2, ![1024, 8]⟩
abbrev S1024x8x1 : Shape := ⟨3, ![1024, 8, 1]⟩
abbrev S1024x256 : Shape := ⟨2, ![1024, 256]⟩

abbrev nBuf : Space → Nat
  | .hbm => 9
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S4096x128, .f32⟩
  | .hbm, ⟨2, _⟩ => ⟨S4096x128x32, .i32⟩
  | .hbm, ⟨3, _⟩ => ⟨S4096, .f32⟩
  | .hbm, ⟨4, _⟩ => ⟨S8192x4096, .f32⟩
  | .hbm, ⟨5, _⟩ => ⟨S128x4096, .f32⟩
  | .hbm, ⟨6, _⟩ => ⟨S1x4096, .f32⟩
  | .hbm, ⟨7, _⟩ => ⟨S8192x4096, .f32⟩
  | .hbm, ⟨8, _⟩ => ⟨S2x4096x4096, .f32⟩
  | .local _ .vmem, ⟨0, _⟩ => ⟨S2048x256, .f32⟩
  | .local _ .vmem, ⟨1, _⟩ => ⟨S2048x256, .f32⟩
  | .local _ .vmem, ⟨2, _⟩ => ⟨S1024x8x32, .i32⟩
  | .local _ .vmem, ⟨3, _⟩ => ⟨S1024x8x32, .i32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v24 : BitVec 1 := Scalar.cmpi .eq arg2 c15_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  transposes_S4096x128_S128x4096_1_0 : S4096x128.Transposes [1, 0] S128x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x8x32_S1024x8x32_0_0_0 : ∀ a, (![0, 0, 0] : Fin 3 → Nat) a + S1024x8x32.size a ≤ S1024x8x32.size a
  h_S1024x8x32 : 0 < S1024x8x32.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  shapeCasts_S1024x8_S1024x8x1 : S1024x8.ShapeCasts S1024x8x1
  broadcasts_S1024x8x1_S1024x8x32 : S1024x8x1.Broadcasts S1024x8x32
  shapeCasts_S1024x8x32_S1024x256 : S1024x8x32.ShapeCasts S1024x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S2x4096x4096 : S8192x4096.ShapeCasts S2x4096x4096
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x32.size a ≤ S4096x128x32.size a
  hwx0_1 : ∀ i : grid0.Coords, EltTy.bits .i32 = 32 ∨ (Rect.block (s := S4096x128x32) S1024x8x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S128x4096.size a
  hwx0_2 : ∀ i : grid0.Coords, EltTy.bits .f32 = 32 ∨ (Rect.block (s := S128x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x128 : Shape := ⟨2, ![4096, 128]⟩
abbrev S4096x128x32 : Shape := ⟨3, ![4096, 128, 32]⟩
abbrev S4096 : Shape := ⟨1, ![4096]⟩
abbrev S_ : Shape := ⟨0, ![]⟩
abbrev S4096x128x1 : Shape := ⟨3, ![4096, 128, 1]⟩
abbrev S4096x4096 : Shape := ⟨2, ![4096, 4096]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x128, .f32⟩
  | .hbm, ⟨2, _⟩ => ⟨S4096x128x32, .i32⟩
  | .hbm, ⟨3, _⟩ => ⟨S4096, .f32⟩
  | .hbm, ⟨4, _⟩ => ⟨S4096x128x32, .f32⟩
  | .hbm, ⟨5, _⟩ => ⟨S_, .f32⟩
  | .hbm, ⟨6, _⟩ => ⟨S4096x128x32, .f32⟩
  | .hbm, ⟨7, _⟩ => ⟨S4096x128x32, .f32⟩
  | .hbm, ⟨8, _⟩ => ⟨S4096x128x1, .f32⟩
  | .hbm, ⟨9, _⟩ => ⟨S4096x128x32, .f32⟩
  | .hbm, ⟨10, _⟩ => ⟨S4096x128x32, .f32⟩
  | .hbm, ⟨11, _⟩ => ⟨S4096x4096, .f32⟩
  | .hbm, ⟨12, _⟩ => ⟨S2x4096x4096, .f32⟩
  | .hbm, ⟨13, _⟩ => ⟨S1x1x4096, .f32⟩
  | .hbm, ⟨14, _⟩ => ⟨S2x4096x4096, .f32⟩
  | .hbm, ⟨15, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S4096x128x32 : S_.BroadcastsInDim S4096x128x32 (![] : Fin 0 → Fin S4096x128x32.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.LibBlockSum.lean ====
/-
  A finite sum cut into consecutive blocks of one length.

  Over any commutative additive monoid, the sum of `f` over `Fin N` with `N = J * n` is the sum, over the `J`
  blocks `s`, of the sum over the `n` places `r` inside a block of `f` at the position `n * s + r`. Only
  commutativity and associativity of the addition are used, so the regrouping holds on the extended reals with
  no finiteness assumption. It sets a contraction that is accumulated block by block along the contracted axis
  beside the same contraction taken whole.
-/
import Mathlib.Data.Fintype.BigOperators
import Mathlib.Logic.Equiv.Fin.Basic

namespace Idealize.ShloMosaic.BlockSum

/-- Place `r` of block `s` lies below `J * n`. -/
theorem place_lt {J n : ℕ} (s : Fin J) (r : Fin n) : n * s.val + r.val < J * n := by
  have h1 : n * (s.val + 1) ≤ n * J := Nat.mul_le_mul_left n s.isLt
  have h2 : n * (s.val + 1) = n * s.val + n := Nat.mul_succ n s.val
  have h3 := r.isLt
  rw [Nat.mul_comm J n]
  omega

/-- The sum over `Fin N`, `N = J * n`, block by block: block `s` holds the positions `n * s + r`, `r < n`. -/
theorem sum_blocks {β : Type*} [AddCommMonoid β] {N : ℕ} (J n : ℕ) (hN : N = J * n) (f : Fin N → β) :
    ∑ k : Fin N, f k = ∑ s : Fin J, ∑ r : Fin n, f ⟨n * s.val + r.val, (place_lt s r).trans_eq hN.symm⟩ := by
  subst hN
  rw [← Fintype.sum_prod_type' (f := fun (s : Fin J) (r : Fin n) => f ⟨n * s.val + r.val, place_lt s r⟩)]
  refine (Fintype.sum_equiv finProdFinEquiv _ _ fun x => ?_).symm
  exact congrArg f (Fin.ext (Nat.add_comm _ _))

end Idealize.ShloMosaic.BlockSum
-- ==== Proof.Spec.lean ====
/-
  The function both programs compute, and the one law that joins their two arrangements of it.

  A weight matrix of 4096 rows and 4096 columns is stored quantized: row `o` is cut into 128 blocks of 32
  columns, block `b` carrying one scale `sc (o, b)` and 32 integer codes `q (o, b, l)`. Column `I` lies in block
  `I / 32` at place `I % 32`, and the dequantized entry is `(code - 128) * scale`. The layer is
  `out (b, s, o) = (∑ I, x (b, s, I) * weight (o, I)) + bias o`.

  The kernel walks the 4096 columns in 16 tiles of 256 and adds one tile's partial sum at a time to an
  accumulator that starts at zero; the reference takes the whole sum at once. A sum over 4096 positions is the
  sum over the 16 tiles of the sums inside each tile, and zero is neutral: only commutativity and associativity of
  the addition are used, so the two arrangements agree on the extended reals with no finiteness assumption.
-/
import Idealize.ShloMosaic.PureOps.Ideal
import Idealize.ShloMosaic.Lib.ValueIdx
import proofs.«180002_j41317585388031_1_alg».proof.Proof.LibBlockSum

noncomputable section

namespace Cert.Dequant

open Idealize.ShloMosaic Idealize.ShloMosaic.ValueIdx

/-- The block of 32 columns that holds column `I`. -/
abbrev blockOf (I : Fin 4096) : Fin 128 := ⟨I.val / 32, by have := I.isLt; omega⟩
/-- Column `I`'s place inside its block. -/
abbrev placeOf (I : Fin 4096) : Fin 32 := ⟨I.val % 32, Nat.mod_lt _ (by decide)⟩

/-- The dequantized weight at row `o`, column `I`: the code read as a signed integer, less 128, times the block's scale. -/
def weight (sc : (⟨2, ![4096, 128]⟩ : Shape).Idx → EReal) (q : (⟨3, ![4096, 128, 32]⟩ : Shape).Idx → BitVec 32)
    (o I : Fin 4096) : EReal :=
  ((((q (ix3 o (blockOf I) (placeOf I))).toInt : ℝ) : EReal) - Ideal.ofBits .f32 0x43000000#32) * sc (ix2 o (blockOf I))

/-- Row `R` of the 8192 flattened rows is batch `R / 4096`, position `R % 4096`. -/
abbrev batchOf (R : Fin 8192) : Fin 2 := ⟨R.val / 4096, by have := R.isLt; omega⟩
abbrev posOf (R : Fin 8192) : Fin 4096 := ⟨R.val % 4096, Nat.mod_lt _ (by decide)⟩

/-- The layer on the flattened rows: entry `(R, o)`. -/
def flat (x : (⟨3, ![2, 4096, 4096]⟩ : Shape).Idx → EReal) (sc : (⟨2, ![4096, 128]⟩ : Shape).Idx → EReal)
    (q : (⟨3, ![4096, 128, 32]⟩ : Shape).Idx → BitVec 32) (bias : (⟨1, ![4096]⟩ : Shape).Idx → EReal) :
    (⟨2, ![8192, 4096]⟩ : Shape).Idx → EReal := fun i =>
  (∑ I : Fin 4096, x (ix3 (batchOf (i 0)) (posOf (i 0)) I) * weight sc q (i 1) I) + bias (ix1 (i 1))

/-- The layer: entry `(b, s, o)`. -/
def layer (x : (⟨3, ![2, 4096, 4096]⟩ : Shape).Idx → EReal) (sc : (⟨2, ![4096, 128]⟩ : Shape).Idx → EReal)
    (q : (⟨3, ![4096, 128, 32]⟩ : Shape).Idx → BitVec 32) (bias : (⟨1, ![4096]⟩ : Shape).Idx → EReal) :
    (⟨3, ![2, 4096, 4096]⟩ : Shape).Idx → EReal := fun i =>
  (∑ I : Fin 4096, x (ix3 (i 0) (i 1) I) * weight sc q (i 2) I) + bias (ix1 (i 2))

/-- Sixteen tile sums added to zero are the whole sum: tile `s` holds the columns `256 * s + r`, `r < 256`. -/
theorem tiles_sum {β : Type*} [AddCommMonoid β] (f : Fin 4096 → β) (M : ℕ → β)
    (hM : ∀ s : Fin 16, M s.val
      = ∑ r : Fin 256, f ⟨256 * s.val + r.val, by have := s.isLt; have := r.isLt; omega⟩) :
    (0 : β) + ∑ s ∈ Finset.range 16, M s = ∑ I : Fin 4096, f I := by
  rw [zero_add, Finset.sum_range, BlockSum.sum_blocks 16 256 rfl f]
  exact Finset.sum_congr rfl fun s _ => hM s

/-- The flattened rows put back: row `4096 * b + s` of the flat array is position `s` of batch `b`. -/
theorem flat_eq_layer (x : (⟨3, ![2, 4096, 4096]⟩ : Shape).Idx → EReal) (sc : (⟨2, ![4096, 128]⟩ : Shape).Idx → EReal)
    (q : (⟨3, ![4096, 128, 32]⟩ : Shape).Idx → BitVec 32) (bias : (⟨1, ![4096]⟩ : Shape).Idx → EReal)
    (b : Fin 2) (s o : Fin 4096) (R : Fin 8192) (hR : R.val = 4096 * b.val + s.val) :
    flat x sc q bias (ix2 R o) = layer x sc q bias (ix3 b s o) := by
  have hb : batchOf R = b := Fin.ext (by show R.val / 4096 = b.val; have := s.isLt; omega)
  have hs : posOf R = s := Fin.ext (by show R.val % 4096 = s.val; have := s.isLt; omega)
  show (∑ I : Fin 4096, x (ix3 (batchOf R) (posOf R) I) * weight sc q o I) + bias (ix1 o)
    = (∑ I : Fin 4096, x (ix3 b s I) * weight sc q o I) + bias (ix1 o)
  rw [hb, hs]

end Cert.Dequant

end
-- ==== Proof.RefValue.lean ====
/-
  The reference computes the layer.

  The reference dequantizes the whole weight matrix — entry `(o, b, l)` is `scale (o, b) * (code (o, b, l) - 128)`,
  flattened so that column `I` is block `I / 32`, place `I % 32` —, contracts the activations' last axis with the
  weights' columns, and adds the bias along the last axis. Entry by entry that is the layer; the only law used is that
  the product `scale * (code - 128)` may be written `(code - 128) * scale`.
-/
import proofs.«180002_j41317585388031_1_alg».proof.Defs
import proofs.«180002_j41317585388031_1_alg».proof.Proof.Gen.ReferenceIdeal.Run
import proofs.«180002_j41317585388031_1_alg».proof.Proof.Gen.ReferenceIdeal.Read
import proofs.«180002_j41317585388031_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.Dequant

/-- The reference's last stage is the layer of the arguments. -/
theorem ref_eq (x0 : (⟨S2x4096x4096, .f32⟩ : BufTy).Contents (Elt Ideal)) (x1 : (⟨S4096x128, .f32⟩ : BufTy).Contents (Elt Ideal))
    (x2 : (⟨S4096x128x32, .i32⟩ : BufTy).Contents (Elt Ideal)) (x3 : (⟨S4096, .f32⟩ : BufTy).Contents (Elt Ideal)) :
    val_main_v10 (F := Ideal) x0 x1 x2 x3 = layer x0 x1 x2 x3 := by
  funext i
  obtain ⟨b, s, o, rfl⟩ : ∃ (b : Fin 2) (s o : Fin 4096), i = ix3 b s o := ⟨i 0, i 1, i 2, eq_ix3 i⟩
  rw [val_main_v10_apply, val_main_v7_apply, val_main_v9_apply, val_main_v8_apply]
  show (∑ k : Fin 4096, x0 (lidx_main_v7 (ix3 b s o) k) * val_main_v6 (F := Ideal) x1 x2 (ridx_main_v7 (ix3 b s o) k))
      + x3 (idx_main_v8 (idx_main_v9 (ix3 b s o)))
    = (∑ I : Fin 4096, x0 (ix3 b s I) * weight x1 x2 o I) + x3 (ix1 o)
  have eb : idx_main_v8 (idx_main_v9 (ix3 b s o)) = ix1 o := funext fun a => Fin.ext (by
    match a with
    | ⟨0, _⟩ => rfl)
  rw [eb]
  congr 1
  refine Finset.sum_congr rfl fun k _ => ?_
  have hk := k.isLt
  have ho := o.isLt
  have e0 : lidx_main_v7 (ix3 b s o) k = ix3 b s k := funext fun a => Fin.ext (by
    match a with
    | ⟨0, _⟩ => rfl
    | ⟨1, _⟩ => rfl
    | ⟨2, _⟩ => rfl)
  have e1 : idx_main_v6 (ridx_main_v7 (ix3 b s o) k) = ix3 o (blockOf k) (placeOf k) := funext fun a => Fin.ext (by
    match a with
    | ⟨0, _⟩ => show (o.val * 4096 + k.val) / 4096 = o.val; omega
    | ⟨1, _⟩ => show (o.val * 4096 + k.val) / 32 % 128 = k.val / 32; omega
    | ⟨2, _⟩ => show (o.val * 4096 + k.val) % 32 = k.val % 32; omega)
  have e2 : idx_main_v3 (idx_main_v4 (ix3 o (blockOf k) (placeOf k))) = ix2 o (blockOf k) := funext fun a => Fin.ext (by
    match a with
    | ⟨0, _⟩ => rfl
    | ⟨1, _⟩ => rfl)
  rw [val_main_v6_apply, val_main_v5_apply, val_main_v4_apply, val_main_v3_apply, val_main_v2_apply, val_main_v0_apply,
    val_main_v1_apply, val_main_cst_apply, e0, e1, e2]
  show x0 (ix3 b s k) * (x1 (ix2 o (blockOf k))
      * ((((x2 (ix3 o (blockOf k) (placeOf k))).toInt : ℝ) : EReal) - Ideal.ofBits .f32 0x43000000#32))
    = x0 (ix3 b s k) * (((((x2 (ix3 o (blockOf k) (placeOf k))).toInt : ℝ) : EReal) - Ideal.ofBits .f32 0x43000000#32)
      * x1 (ix2 o (blockOf k)))
  rw [mul_comm (x1 (ix2 o (blockOf k)))]

end Cert.ReferenceIdeal.RefValue

end
-- ==== Proof.Pieces.lean ====
/-
  What the body leaves at a grid point, in each of its three cases, as values of the blocks it was handed.

  The first point of a run of sixteen zeroes the accumulator, reads it back and stores `zeros + product`; a middle
  point stores `accumulator + product`; the last point does the same and then writes `accumulator + bias row` to
  the output block, reading the accumulator it has just stored. Each store covers its whole buffer and each load
  reads a whole buffer, so what a buffer ends holding is the payload of its last store.
-/
import proofs.«180002_j41317585388031_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- Offsets written as a literal tuple of zeros are the zero offsets. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A run of the accumulation's middle: the scratch ends at the accumulating payload of the three input blocks and of
    what the scratch held. -/
theorem scratch_B (c : Dev nD) (i : grid0.Coords) (a3 : Memref sig .tc .vmem S2048x256 .f32) (h3 : a3.IsWhole)
    (a4 : Memref sig .tc .vmem S1024x8x32 .i32) (h4 : a4.IsWhole) (a5 : Memref sig .tc .vmem S8x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : ¬cond0_0 i) (hc1 : ¬cond0_1 i)
    (x0 : Vec F S2048x256 .f32) (x1 : Vec F S1024x8x32 .i32) (x2 : Vec F S8x1024 .f32) (x3 : Vec F S1x1024 .f32)
    (xs0 : Vec F S2048x1024 .f32) :
    sout0_B_0 c i a3 h3 a4 h4 a5 h5 a6 h6 a7 h7 a8 h8 hc0 hc1 x0 x1 x2 x3 xs0 = k0_pay2 x1 x2 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread,
    View.ld_unit_zero (S := S2048x256) hz2, View.ld_unit_zero (S := S1024x8x32) hz3, View.ld_unit_zero (S := S8x1024) hz2,
    View.ld_unit_zero (S := S1x1024) hz2, View.ld_unit_zero (S := S2048x1024) hz2]

/-- The last point of a run: the scratch ends as in the middle, -/
theorem scratch_C (c : Dev nD) (i : grid0.Coords) (a3 : Memref sig .tc .vmem S2048x256 .f32) (h3 : a3.IsWhole)
    (a4 : Memref sig .tc .vmem S1024x8x32 .i32) (h4 : a4.IsWhole) (a5 : Memref sig .tc .vmem S8x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : ¬cond0_0 i) (hc1 : cond0_1 i)
    (x0 : Vec F S2048x256 .f32) (x1 : Vec F S1024x8x32 .i32) (x2 : Vec F S8x1024 .f32) (x3 : Vec F S1x1024 .f32)
    (xs0 : Vec F S2048x1024 .f32) :
    sout0_C_0 c i a3 h3 a4 h4 a5 h5 a6 h6 a7 h7 a8 h8 hc0 hc1 x0 x1 x2 x3 xs0 = k0_pay2 x1 x2 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S2048x256) hz2, View.ld_unit_zero (S := S1024x8x32) hz3, View.ld_unit_zero (S := S8x1024) hz2,
    View.ld_unit_zero (S := S1x1024) hz2, View.ld_unit_zero (S := S2048x1024) hz2]

/-- and the output block is the output payload of that scratch (read back after the store) and of the bias block. -/
theorem out_C (c : Dev nD) (i : grid0.Coords) (a3 : Memref sig .tc .vmem S2048x256 .f32) (h3 : a3.IsWhole)
    (a4 : Memref sig .tc .vmem S1024x8x32 .i32) (h4 : a4.IsWhole) (a5 : Memref sig .tc .vmem S8x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : ¬cond0_0 i) (hc1 : cond0_1 i)
    (x0 : Vec F S2048x256 .f32) (x1 : Vec F S1024x8x32 .i32) (x2 : Vec F S8x1024 .f32) (x3 : Vec F S1x1024 .f32)
    (xs0 : Vec F S2048x1024 .f32) :
    out0_C_4 c i a3 h3 a4 h4 a5 h5 a6 h6 a7 h7 a8 h8 hc0 hc1 x0 x1 x2 x3 xs0 = k0_pay3 (k0_pay2 x1 x2 x0 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz2, View.readCov_unit_zero (S := S2048x1024) _ hz2]
  simp only [View.readAt_eq_ld, h3.read_unread, h4.read_unread, h5.read_unread, h6.read_unread, h8.read_unread,
    View.ld_unit_zero (S := S2048x256) hz2, View.ld_unit_zero (S := S1024x8x32) hz3, View.ld_unit_zero (S := S8x1024) hz2,
    View.ld_unit_zero (S := S1x1024) hz2, View.ld_unit_zero (S := S2048x1024) hz2]

/-- The first point of a run: the scratch is zeroed, read back, and ends at the accumulating payload over the zeros. -/
theorem scratch_A (c : Dev nD) (i : grid0.Coords) (a3 : Memref sig .tc .vmem S2048x256 .f32) (h3 : a3.IsWhole)
    (a4 : Memref sig .tc .vmem S1024x8x32 .i32) (h4 : a4.IsWhole) (a5 : Memref sig .tc .vmem S8x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : cond0_0 i) (hc1 : ¬cond0_1 i)
    (x0 : Vec F S2048x256 .f32) (x1 : Vec F S1024x8x32 .i32) (x2 : Vec F S8x1024 .f32) (x3 : Vec F S1x1024 .f32) :
    sout0_A_0 c i a3 h3 a4 h4 a5 h5 a6 h6 a7 h7 a8 h8 hc0 hc1 x0 x1 x2 x3 = k0_pay2 x1 x2 x0 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz2, View.readCov_unit_zero (S := S2048x1024) _ hz2]
  simp only [View.readAt_eq_ld, h3.read_unread, h4.read_unread, h5.read_unread, h6.read_unread, h8.read_unread,
    View.ld_unit_zero (S := S2048x256) hz2, View.ld_unit_zero (S := S1024x8x32) hz3, View.ld_unit_zero (S := S8x1024) hz2,
    View.ld_unit_zero (S := S1x1024) hz2, View.ld_unit_zero (S := S2048x1024) hz2]

end Cert.KernelIdeal.Pieces
end
-- ==== Proof.LibTransposedDot.lean ====
/-
  A matrix product with the right operand transposed, read at an index, at the ideal instance.

  The dimension numbers `DotDims.transposedRhs M K N` contract the SECOND axis of both operands: an `M × K` matrix
  by an `N × K` matrix, the product `A · Bᵀ` (what `einsum('qd,kd->qk')` lowers to). Over the extended reals both the
  kernel's matrix product into a zero accumulator and the host's `dot_general` are, at the entry `(i, j)`, the sum
  over `k : Fin K` of `lhs (i, k) * rhs (j, k)`. The library states this sum over the contracted SHAPE's index type;
  here it is re-indexed once, for every `M K N`, over `Fin K`, with both operand indices written from coordinates.
  A printed record whose six lists are [1] [1] [0] [0] [] [] is `DotDims.transposedRhs` by `rfl` (its
  well-formedness field is a proposition), so the lemmas apply to it after `rw [show d = .transposedRhs _ _ _ from rfl]`.
-/
import Idealize.ShloMosaic.PureOps.Ideal.Laws
import Idealize.ShloMosaic.Lib.ValueIdx

noncomputable section

namespace Idealize.ShloMosaic.TransposedDot

open Idealize.ShloMosaic Idealize.ShloMosaic.ValueIdx

variable (M K N : Nat)

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The contraction of a product with transposed right operand, re-indexed over `Fin K`. -/
theorem sum_eq (lhs : (⟨2, ![M, K]⟩ : Shape).Idx → EReal) (rhs : (⟨2, ![N, K]⟩ : Shape).Idx → EReal)
    (j : (⟨2, ![M, N]⟩ : Shape).Idx) :
    ∑ q : (DotDims.transposedRhs M K N).contr.Idx,
        lhs ((DotDims.transposedRhs M K N).lhsIdx j q) * rhs ((DotDims.transposedRhs M K N).rhsIdx j q)
      = ∑ k : Fin K, lhs (ix2 (j 0) k) * rhs (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row M K N _ _
      | ⟨1, _⟩ => exact ((DotDims.transposedRhs M K N).lhsIdx_val_of_single rfl j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row M K N _ _
      | ⟨1, _⟩ => exact ((DotDims.transposedRhs M K N).rhsIdx_val_of_single rfl j _).trans hk)
  exact congrArg₂ (· * ·) (congrArg lhs el) (congrArg rhs er)

variable {M K N}

/-- The kernel's matrix product into a zero accumulator, at `(i, j)`: the sum over `k` of `lhs (i, k) * rhs (j, k)`. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    matmul (DotDims.transposedRhs M K N) prec lhs rhs (constant (F := Ideal) ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans
    (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![N, K]⟩ φ₂) (i : Fin M) (j : Fin N) :
    Host.dotGeneral (DotDims.transposedRhs M K N) prec lhs rhs (ix2 i j)
      = ∑ k : Fin K, lhs (ix2 i k) * rhs (ix2 j k) := by
  simp only [Host.dotGeneral]
  exact (Ideal.dotGeneral_apply (DotDims.transposedRhs M K N) prec _ lhs rhs (ix2 i j)).trans
    (sum_eq M K N lhs rhs (ix2 i j))

end Idealize.ShloMosaic.TransposedDot

end
-- ==== Proof.Tile.lean ====
/-
  What the body computes at one grid point, read at an index.

  At a grid point the body holds a 2048 × 256 block `xb` of activations, a 1024 × 8 × 32 block `qb` of codes and an
  8 × 1024 block `sb` of scales (the scales arrive transposed: block index first, weight row second). It forms the
  1024 × 256 weight tile whose entry `(n, k)` is `(qb (n, k / 32, k % 32) - 128) * sb (k / 32, n)`, multiplies the
  activations by its transpose, and adds the 2048 × 1024 product to the accumulator. So the stored accumulator is
  `acc + tile`, with `tile (p, n) = ∑ k < 256, xb (p, k) * ((qb (n, k / 32, k % 32) - 128) * sb (k / 32, n))`.
  The last point of a run also writes `acc + bias row` to the output block; the first one starts from zeros.
-/
import proofs.«180002_j41317585388031_1_alg».proof.Proof.Gen.KernelIdeal.Skeleton
import proofs.«180002_j41317585388031_1_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

section AnyFloat
variable {F : FTy → Type} [FloatOps F]

/-- The weight tile: codes less 128, times the scales laid along the 32 places of each block, flattened to 256 columns. -/
def wtile (qb : Vec F S1024x8x32 .i32) (sb : Vec F S8x1024 .f32) : FVec F S1024x256 .f32 :=
  shapeCast S1024x256
    (mulf (subf (sitofp .f32 qb) (broadcast S1024x8x32 (Scalar.ofBits .f32 0x43000000#32)))
      (broadcastTo S1024x8x32
        (shapeCast S1024x8x1 (transpose S1024x8 [1, 0] sb transposes_S8x1024_p1_0_S1024x8) shapeCasts_S1024x8_S1024x8x1)
        broadcasts_S1024x8x1_S1024x8x32))
    shapeCasts_S1024x8x32_S1024x256

/-- One grid point's product: the activations block times the transposed weight tile, into a zero accumulator. -/
def tile (qb : Vec F S1024x8x32 .i32) (sb : Vec F S8x1024 .f32) (xb : Vec F S2048x256 .f32) : FVec F S2048x1024 .f32 :=
  matmul dot_S2048x256_S1024x256_S2048x1024_1_1_0_0_n_n none (truncf .bf16 xb bitsLt_bf16_f32)
    (truncf .bf16 (wtile qb sb) bitsLt_bf16_f32) (constant S2048x1024 .f32 0x00000000#32)

/-- The accumulating store's payload is the accumulator plus the point's product. -/
theorem pay2_eq (qb : Vec F S1024x8x32 .i32) (sb : Vec F S8x1024 .f32) (xb : Vec F S2048x256 .f32)
    (acc : Vec F S2048x1024 .f32) : k0_pay2 qb sb xb acc = addf acc (tile qb sb xb) := by
  unfold k0_pay2 tile wtile
  simp only [shapeCast_self]

end AnyFloat

/-! ## At the ideal instance, at coordinates -/

/-- The block of 32 holding column `k` of a 256-column tile, and the place inside it. -/
abbrev blk (k : Fin 256) : Fin 8 := ⟨k.val / 32, by have := k.isLt; omega⟩
abbrev plc (k : Fin 256) : Fin 32 := ⟨k.val % 32, Nat.mod_lt _ (by decide)⟩

/-- The scales, transposed, given a unit axis and repeated along the 32 places: entry `(n, b, l)` is `sb (b, n)`. -/
theorem scales_apply {α : Type} (sb : S8x1024.Idx → α) (n : Fin 1024) (b : Fin 8) (l : Fin 32) :
    broadcastTo S1024x8x32
        (shapeCast S1024x8x1 (transpose S1024x8 [1, 0] sb transposes_S8x1024_p1_0_S1024x8) shapeCasts_S1024x8_S1024x8x1)
        broadcasts_S1024x8x1_S1024x8x32 (ix3 n b l) = sb (ix2 b n) := by
  refine (broadcastTo_apply _ broadcasts_S1024x8x1_S1024x8x32 (ix3 n b l) (ix3 n b (0 : Fin 1)) fun a => ?_).trans ?_
  · match a with
    | ⟨0, _⟩ => show n.val = if (1024 : Nat) = 1 then 0 else n.val; rw [if_neg (by decide)]
    | ⟨1, _⟩ => show b.val = if (8 : Nat) = 1 then 0 else b.val; rw [if_neg (by decide)]
    | ⟨2, _⟩ => show 0 = if (1 : Nat) = 1 then 0 else l.val; rw [if_pos rfl]
  refine (shapeCast_apply _ shapeCasts_S1024x8_S1024x8x1 (ix3 n b (0 : Fin 1)) (ix2 n b) ?_).trans ?_
  · rw [Shape.rowMajor_val_three, Shape.rowMajor_val_two]
    show n.val * 8 + b.val = (n.val * 8 + b.val) * 1 + 0
    omega
  exact transpose_ix2_apply sb transposes_S8x1024_p1_0_S1024x8 n b

/-- The weight tile at `(n, k)`. -/
theorem wtile_apply (qb : Vec Ideal S1024x8x32 .i32) (sb : Vec Ideal S8x1024 .f32) (n : Fin 1024) (k : Fin 256) :
    wtile (F := Ideal) qb sb (ix2 n k)
      = ((((qb (ix3 n (blk k) (plc k))).toInt : ℝ) : EReal) - Ideal.ofBits .f32 0x43000000#32) * sb (ix2 (blk k) n) := by
  unfold wtile
  refine (shapeCast_apply _ shapeCasts_S1024x8x32_S1024x256 (ix2 n k) (ix3 n (blk k) (plc k)) ?_).trans ?_
  · rw [Shape.rowMajor_val_three, Shape.rowMajor_val_two]
    show (n.val * 8 + k.val / 32) * 32 + k.val % 32 = n.val * 256 + k.val
    have := k.isLt
    omega
  rw [mulf_apply, subf_apply, scales_apply]
  rfl

/-- One point's product at `(p, n)`: the sum over the tile's 256 columns. -/
theorem tile_apply (qb : Vec Ideal S1024x8x32 .i32) (sb : Vec Ideal S8x1024 .f32) (xb : Vec Ideal S2048x256 .f32)
    (p : Fin 2048) (n : Fin 1024) :
    tile (F := Ideal) qb sb xb (ix2 p n)
      = ∑ k : Fin 256, xb (ix2 p k)
          * (((((qb (ix3 n (blk k) (plc k))).toInt : ℝ) : EReal) - Ideal.ofBits .f32 0x43000000#32) * sb (ix2 (blk k) n)) := by
  unfold tile
  rw [show dot_S2048x256_S1024x256_S2048x1024_1_1_0_0_n_n = DotDims.transposedRhs 2048 256 1024 from rfl]
  refine (TransposedDot.matmul_zero_apply none _ _ p n).trans ?_
  refine Finset.sum_congr rfl fun k _ => ?_
  rw [truncf_apply, truncf_apply, wtile_apply]

/-- The accumulating payload at `(p, n)`. -/
theorem pay2_apply (qb : Vec Ideal S1024x8x32 .i32) (sb : Vec Ideal S8x1024 .f32) (xb : Vec Ideal S2048x256 .f32)
    (acc : Vec Ideal S2048x1024 .f32) (i : S2048x1024.Idx) :
    k0_pay2 (F := Ideal) qb sb xb acc i = acc i + tile (F := Ideal) qb sb xb i := by
  rw [pay2_eq]; rfl

/-- The first point's accumulator starts from zero. -/
theorem pay1_apply (i : S2048x1024.Idx) : k0_pay1 (F := Ideal) i = 0 := by
  unfold k0_pay1
  rw [shapeCast_self]
  exact Ideal.ofBits_zero_f32

/-- The output payload at `(p, n)`: the accumulator plus the bias row's entry `n`. -/
theorem pay3_apply (acc : Vec Ideal S2048x1024 .f32) (bb : Vec Ideal S1x1024 .f32) (p : Fin 2048) (n : Fin 1024) :
    k0_pay3 (F := Ideal) acc bb (ix2 p n) = acc (ix2 p n) + bb (ix2 (0 : Fin 1) n) := by
  unfold k0_pay3
  rw [shapeCast_self, addf_apply, broadcastTo_1b_ab_apply]

end Cert.KernelIdeal.Tile

end
-- ==== Proof.Fold.lean ====
/-
  The accumulator across a run of sixteen grid points.

  The grid's last axis is the reduction: points `16 * g`, …, `16 * g + 15` work on one output block. At the first
  the accumulator becomes `zeros + product`, at every later one `previous + product`, and at the last the output
  block becomes `accumulator + bias row`. So after the point at step `j` of its run the accumulator is, entry by
  entry, zero plus the sum of the products of the run's points `0 … j`.
-/
import proofs.«180002_j41317585388031_1_alg».proof.Proof.Pieces
import proofs.«180002_j41317585388031_1_alg».proof.Proof.Tile

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Idealize.ShloMosaic.ValueIdx

variable (m : (ℓ : Loc nD τ sig) → Buf (Elt Ideal) ℓ)

/-- The first point of a run leaves `zeros + product` in the accumulator. -/
theorem scratch_first (c : Dev nD) (t : Fin cfg0.N) (h0 : t.val % 16 = 0) :
    (outsAt0 m c t.val t.isLt).2
      = k0_pay2 (F := Ideal) (iblk m c 1 t) (iblk m c 2 t) (iblk m c 0 t) (k0_pay1 (F := Ideal)) := by
  have h1 : ¬t.val % 16 = 15 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (iblk m c 0 t) (iblk m c 1 t) (iblk m c 2 t) (iblk m c 3 t)

/-- Every later point leaves `previous + product`. -/
theorem scratch_later (c : Dev nD) (t : Fin cfg0.N) (h0 : ¬t.val % 16 = 0) :
    (outsAt0 m c t.val t.isLt).2
      = k0_pay2 (F := Ideal) (iblk m c 1 t) (iblk m c 2 t) (iblk m c 0 t) (outsAt0 m c (t.val - 1) (Nat.lt_of_le_of_lt (Nat.sub_le _ _) t.isLt)).2 := by
  by_cases h1 : t.val % 16 = 15
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2

/-- The last point of a run leaves `accumulator + bias row` in the output block. -/
theorem out_last (c : Dev nD) (t : Fin cfg0.N) (h1 : t.val % 16 = 15) :
    (outsAt0 m c t.val t.isLt).1 = k0_pay3 (F := Ideal) (outsAt0 m c t.val t.isLt).2 (iblk m c 3 t) := by
  have h0 : ¬t.val % 16 = 0 := by omega
  rw [outsAt0_C m c t h0 h1]
  dsimp only
  rw [Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2]
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2

/-- The run's first value, and its step, as functions of the point. -/
def reset (c : Dev nD) (n : ℕ) (h : n < cfg0.N) : S2048x1024.Idx → EReal :=
  k0_pay2 (F := Ideal) (iblk m c 1 ⟨n, h⟩) (iblk m c 2 ⟨n, h⟩) (iblk m c 0 ⟨n, h⟩) (k0_pay1 (F := Ideal))
def step (c : Dev nD) (n : ℕ) (h : n < cfg0.N) (a : S2048x1024.Idx → EReal) : S2048x1024.Idx → EReal :=
  k0_pay2 (F := Ideal) (iblk m c 1 ⟨n, h⟩) (iblk m c 2 ⟨n, h⟩) (iblk m c 0 ⟨n, h⟩) a

/-- Point `n`'s product (zero past the grid, where it is never used). -/
def prod (c : Dev nD) (n : ℕ) : S2048x1024.Idx → EReal :=
  if h : n < cfg0.N then Tile.tile (F := Ideal) (iblk m c 1 ⟨n, h⟩) (iblk m c 2 ⟨n, h⟩) (iblk m c 0 ⟨n, h⟩) else fun _ => 0

theorem prod_of_lt (c : Dev nD) (t : Fin cfg0.N) :
    prod m c t.val = Tile.tile (F := Ideal) (iblk m c 1 t) (iblk m c 2 t) (iblk m c 0 t) := by
  unfold prod; rw [dif_pos t.isLt]

/-- The accumulator after point `t` is the fold over its run up to `t`. -/
theorem acc_eq_fold (c : Dev nD) (t : Fin cfg0.N) (h' : 16 * (t.val / 16) + t.val % 16 < cfg0.N) :
    (outsAt0 m c t.val t.isLt).2 = Pipeline.accAt (reset m c) (step m c) (16 * (t.val / 16)) (t.val % 16) h' :=
  Pipeline.eq_accAt_of_mod (fun n h => (outsAt0 m c n h).2) 16 (reset m c) (step m c)
    (fun n h h0 => scratch_first m c ⟨n, h⟩ h0)
    (fun n h hne => scratch_later m c ⟨n + 1, h⟩ hne)
    (by decide) t.val t.isLt h'

/-- Entry by entry: zero plus the products of the run's points up to `t`. -/
theorem acc_apply (c : Dev nD) (t : Fin cfg0.N) (i : S2048x1024.Idx) :
    (outsAt0 m c t.val t.isLt).2 i
      = 0 + ∑ s ∈ Finset.range (t.val % 16 + 1), prod m c (16 * (t.val / 16) + s) i := by
  have h' : 16 * (t.val / 16) + t.val % 16 < cfg0.N := by rw [Nat.div_add_mod]; exact t.isLt
  rw [acc_eq_fold m c t h']
  refine Pipeline.accAt_add_apply (reset m c) (step m c) (fun _ => (0 : EReal)) (prod m c) (16 * (t.val / 16)) 15
    (fun h i => ?_) (fun n h a i _ _ => ?_) (t.val % 16) (by omega) h' i
  · refine (Tile.pay2_apply _ _ _ _ i).trans ?_
    rw [Tile.pay1_apply, prod_of_lt m c ⟨_, h⟩]
  · refine (Tile.pay2_apply _ _ _ _ i).trans ?_
    rw [prod_of_lt m c ⟨n, h⟩]

end Cert.KernelIdeal.Fold

end
-- ==== Proof.Blocks.lean ====
/-
  The arrays the windows stage, and each window's block at a grid point read at coordinates of its array.

  Before the region the host flattens the activations to 8192 rows (row `R` is batch `R / 4096`, position
  `R % 4096`), transposes the scales to 128 × 4096, and lays the bias as one row of 4096. The grid is 4 × 4 × 16;
  point `t` has row-tile `t / 64`, column-tile `t / 16 % 4` and reduction step `t % 16`. A block's coordinate on
  an axis is the window's block index there times the block's extent, plus the coordinate inside the block.
-/
import proofs.«180002_j41317585388031_1_alg».proof.Proof.Gen.KernelIdeal.Frame
import proofs.«180002_j41317585388031_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Blocks

open Cert.KernelIdeal Cert.KernelIdeal.Gen Idealize.ShloMosaic.ValueIdx Cert.Dequant

variable {F : FTy → Type} [FloatOps F]
variable (m : (ℓ : Loc nD τ sig) → Buf (Elt F) ℓ)

/-! ## The block indices, decided over the grid -/

theorem index_x : ∀ t : Fin cfg0.N, win0_0.index t 0 = t.val / 64 ∧ win0_0.index t 1 = t.val % 16 :=
  (by decide +kernel : ∀ t : Fin grid0.N, win0_0.index t 0 = t.val / 64 ∧ win0_0.index t 1 = t.val % 16)
theorem index_q : ∀ t : Fin cfg0.N, win0_1.index t 0 = t.val / 16 % 4 ∧ win0_1.index t 1 = t.val % 16 ∧ win0_1.index t 2 = 0 :=
  (by decide +kernel : ∀ t : Fin grid0.N, win0_1.index t 0 = t.val / 16 % 4 ∧ win0_1.index t 1 = t.val % 16 ∧ win0_1.index t 2 = 0)
theorem index_s : ∀ t : Fin cfg0.N, win0_2.index t 0 = t.val % 16 ∧ win0_2.index t 1 = t.val / 16 % 4 :=
  (by decide +kernel : ∀ t : Fin grid0.N, win0_2.index t 0 = t.val % 16 ∧ win0_2.index t 1 = t.val / 16 % 4)
theorem index_b : ∀ t : Fin cfg0.N, win0_3.index t 0 = 0 ∧ win0_3.index t 1 = t.val / 16 % 4 :=
  (by decide +kernel : ∀ t : Fin grid0.N, win0_3.index t 0 = 0 ∧ win0_3.index t 1 = t.val / 16 % 4)
theorem index_o : ∀ t : Fin cfg0.N, win0_4.index t 0 = t.val / 64 ∧ win0_4.index t 1 = t.val / 16 % 4 :=
  (by decide +kernel : ∀ t : Fin grid0.N, win0_4.index t 0 = t.val / 64 ∧ win0_4.index t 1 = t.val / 16 % 4)

/-! ## What the region finds in the staged arrays -/

/-- The activations, flattened to 8192 rows. -/
theorem found_x (c : Dev nD) : (V m c main_v0 : Vec F S8192x4096 .f32)
    = shapeCast S8192x4096 (m ((c : Thread nD τ).loc main_arg0)) shapeCasts_S2x4096x4096_S8192x4096 := by
  show StableHlo.after hostOps0 (fun b => m (c, b)) (Proc.devRef .tc main_v0) = _
  after_results <;> rfl

/-- The scales, transposed. -/
theorem found_s (c : Dev nD) : (V m c main_v1 : Vec F S128x4096 .f32)
    = transpose S128x4096 [1, 0] (m ((c : Thread nD τ).loc main_arg1)) transposes_S4096x128_S128x4096_1_0 := by
  show StableHlo.after hostOps0 (fun b => m (c, b)) (Proc.devRef .tc main_v1) = _
  after_results <;> rfl

/-- The bias, as one row. -/
theorem found_b (c : Dev nD) : (V m c main_v2 : Vec F S1x4096 .f32)
    = shapeCast S1x4096 (m ((c : Thread nD τ).loc main_arg3)) shapeCasts_S4096_S1x4096 := by
  show StableHlo.after hostOps0 (fun b => m (c, b)) (Proc.devRef .tc main_v2) = _
  after_results <;> rfl

theorem x_apply (c : Dev nD) (R : Fin 8192) (I : Fin 4096) :
    (V m c main_v0 : Vec F S8192x4096 .f32) (ix2 R I)
      = (m ((c : Thread nD τ).loc main_arg0) : Vec F S2x4096x4096 .f32) (ix3 (batchOf R) (posOf R) I) := by
  rw [found_x]
  refine shapeCast_apply _ shapeCasts_S2x4096x4096_S8192x4096 (ix2 R I) (ix3 (batchOf R) (posOf R) I) ?_
  rw [Shape.rowMajor_val_three, Shape.rowMajor_val_two]
  show (R.val / 4096 * 4096 + R.val % 4096) * 4096 + I.val = R.val * 4096 + I.val
  omega

theorem s_apply (c : Dev nD) (B : Fin 128) (o : Fin 4096) :
    (V m c main_v1 : Vec F S128x4096 .f32) (ix2 B o)
      = (m ((c : Thread nD τ).loc main_arg1) : Vec F S4096x128 .f32) (ix2 o B) := by
  rw [found_s]
  exact transpose_ix2_apply _ transposes_S4096x128_S128x4096_1_0 B o

theorem b_apply (c : Dev nD) (o : Fin 4096) :
    (V m c main_v2 : Vec F S1x4096 .f32) (ix2 (0 : Fin 1) o)
      = (m ((c : Thread nD τ).loc main_arg3) : Vec F S4096 .f32) (ix1 o) := by
  rw [found_b]
  exact shapeCast_a_1a_apply _ shapeCasts_S4096_S1x4096 0 o

theorem q_apply (c : Dev nD) (j : S4096x128x32.Idx) :
    (V m c main_arg2 : Vec F S4096x128x32 .i32) j = (m ((c : Thread nD τ).loc main_arg2) : Vec F S4096x128x32 .i32) j := by
  rw [V_main_arg2]

/-! ## The blocks at a grid point -/

/-- The activations block: rows `2048 * (t / 64) + p`, columns `256 * (t % 16) + r`. -/
theorem xblk_apply (c : Dev nD) (t : Fin cfg0.N) (p : Fin 2048) (r : Fin 256) (R : Fin 8192) (I : Fin 4096)
    (hR : R.val = 2048 * (t.val / 64) + p.val) (hI : I.val = 256 * (t.val % 16) + r.val) :
    (iblk m c 0 t : Vec F S2048x256 .f32) (ix2 p r) = (V m c main_v0 : Vec F S8192x4096 .f32) (ix2 R I) := by
  have hi := index_x t
  unfold iblk
  rw [View.read_apply]
  show V m c main_v0 _ = V m c main_v0 _
  congr 1
  funext a
  apply Fin.ext
  match a with
  | ⟨0, _⟩ => show win0_0.index t 0 * 2048 + 1 * p.val = R.val; rw [hi.1, hR]; omega
  | ⟨1, _⟩ => show win0_0.index t 1 * 256 + 1 * r.val = I.val; rw [hi.2, hI]; omega

/-- The codes block: weight rows `1024 * (t / 16 % 4) + n`, blocks `8 * (t % 16) + b`, every place. -/
theorem qblk_apply (c : Dev nD) (t : Fin cfg0.N) (n : Fin 1024) (b : Fin 8) (l : Fin 32) (o : Fin 4096) (B : Fin 128) (L : Fin 32)
    (ho : o.val = 1024 * (t.val / 16 % 4) + n.val) (hB : B.val = 8 * (t.val % 16) + b.val) (hL : L.val = l.val) :
    (iblk m c 1 t : Vec F S1024x8x32 .i32) (ix3 n b l) = (V m c main_arg2 : Vec F S4096x128x32 .i32) (ix3 o B L) := by
  have hi := index_q t
  unfold iblk
  rw [View.read_apply]
  show V m c main_arg2 _ = V m c main_arg2 _
  congr 1
  funext a
  apply Fin.ext
  match a with
  | ⟨0, _⟩ => show win0_1.index t 0 * 1024 + 1 * n.val = o.val; rw [hi.1, ho]; omega
  | ⟨1, _⟩ => show win0_1.index t 1 * 8 + 1 * b.val = B.val; rw [hi.2.1, hB]; omega
  | ⟨2, _⟩ => show win0_1.index t 2 * 32 + 1 * l.val = L.val; rw [hi.2.2, hL]; omega

/-- The scales block (transposed array): blocks `8 * (t % 16) + b`, weight rows `1024 * (t / 16 % 4) + n`. -/
theorem sblk_apply (c : Dev nD) (t : Fin cfg0.N) (b : Fin 8) (n : Fin 1024) (B : Fin 128) (o : Fin 4096)
    (hB : B.val = 8 * (t.val % 16) + b.val) (ho : o.val = 1024 * (t.val / 16 % 4) + n.val) :
    (iblk m c 2 t : Vec F S8x1024 .f32) (ix2 b n) = (V m c main_v1 : Vec F S128x4096 .f32) (ix2 B o) := by
  have hi := index_s t
  unfold iblk
  rw [View.read_apply]
  show V m c main_v1 _ = V m c main_v1 _
  congr 1
  funext a
  apply Fin.ext
  match a with
  | ⟨0, _⟩ => show win0_2.index t 0 * 8 + 1 * b.val = B.val; rw [hi.1, hB]; omega
  | ⟨1, _⟩ => show win0_2.index t 1 * 1024 + 1 * n.val = o.val; rw [hi.2, ho]; omega

/-- The bias block: the one row, columns `1024 * (t / 16 % 4) + n`. -/
theorem bblk_apply (c : Dev nD) (t : Fin cfg0.N) (n : Fin 1024) (o : Fin 4096)
    (ho : o.val = 1024 * (t.val / 16 % 4) + n.val) :
    (iblk m c 3 t : Vec F S1x1024 .f32) (ix2 (0 : Fin 1) n) = (V m c main_v2 : Vec F S1x4096 .f32) (ix2 (0 : Fin 1) o) := by
  have hi := index_b t
  unfold iblk
  rw [View.read_apply]
  show V m c main_v2 _ = V m c main_v2 _
  congr 1
  funext a
  apply Fin.ext
  match a with
  | ⟨0, _⟩ => show win0_3.index t 0 * 1 + 1 * 0 = 0; rw [hi.1]
  | ⟨1, _⟩ => show win0_3.index t 1 * 1024 + 1 * n.val = o.val; rw [hi.2, ho]; omega

end Cert.KernelIdeal.Blocks

end
-- ==== Proof.Result.lean ====
/-
  The kernel's result.

  At the last point of a run the output block holds, at `(p, n)`, zero plus the sixteen products of the run plus
  the bias entry. Point `16 * g + s` of the run multiplies columns `256 * s … 256 * s + 255`, so the sixteen
  products are the tile sums of one sum over all 4096 columns: the block is the block of the flat layer. The
  sixteen output blocks in each direction tile the 8192 × 4096 array, each written back once, at the last point of
  its run, so the array ends at the flat layer; the host then reshapes it to 2 × 4096 × 4096, which is the layer.
-/
import proofs.«180002_j41317585388031_1_alg».proof.Proof.Fold
import proofs.«180002_j41317585388031_1_alg».proof.Proof.Blocks
import proofs.«180002_j41317585388031_1_alg».proof.Proof.Spec

set_option maxRecDepth 16384

noncomputable section

open Idealize.ShloMosaic Idealize.ShloMosaic.TcCoe Idealize.SL.Sem Idealize.ShloMosaic.Tactic
open Idealize.ShloMosaic.Pipeline (Dat)

namespace Cert.KernelIdeal.Result

open Cert.KernelIdeal Cert.KernelIdeal.Gen Idealize.ShloMosaic.ValueIdx Cert.Dequant

variable (m : (ℓ : Loc nD τ sig) → Buf (Elt Ideal) ℓ) (ρ : Dev nD → PrngReg)

/-- The four argument arrays as launched, as functions of coordinates. -/
abbrev xOf (c : Dev nD) : S2x4096x4096.Idx → EReal := m ((c : Thread nD τ).loc main_arg0)
abbrev scOf (c : Dev nD) : S4096x128.Idx → EReal := m ((c : Thread nD τ).loc main_arg1)
abbrev qOf (c : Dev nD) : S4096x128x32.Idx → BitVec 32 := m ((c : Thread nD τ).loc main_arg2)
abbrev biasOf (c : Dev nD) : S4096.Idx → EReal := m ((c : Thread nD τ).loc main_arg3)

/-- The flat layer of the argument arrays as launched. -/
abbrev flatOf (c : Dev nD) : S8192x4096.Idx → EReal := flat (xOf m c) (scOf m c) (qOf m c) (biasOf m c)

/-- The layer of the argument arrays as launched. -/
abbrev layerOf (c : Dev nD) : S2x4096x4096.Idx → EReal := layer (xOf m c) (scOf m c) (qOf m c) (biasOf m c)

/-- One point's product at `(p, n)`, in the whole arrays: the tile sum over the point's 256 columns. -/
theorem prod_apply (c : Dev nD) (t : Fin cfg0.N) (s : Fin 16) (hs : t.val % 16 = s.val) (p : Fin 2048) (n : Fin 1024)
    (R : Fin 8192) (o : Fin 4096) (hR : R.val = 2048 * (t.val / 64) + p.val) (ho : o.val = 1024 * (t.val / 16 % 4) + n.val) :
    Fold.prod m c t.val (ix2 p n)
      = ∑ r : Fin 256,
          xOf m c (ix3 (batchOf R) (posOf R) ⟨256 * s.val + r.val, by have := s.isLt; have := r.isLt; omega⟩)
            * weight (scOf m c) (qOf m c) o ⟨256 * s.val + r.val, by have := s.isLt; have := r.isLt; omega⟩ := by
  rw [Fold.prod_of_lt, Tile.tile_apply]
  refine Finset.sum_congr rfl fun r _ => ?_
  have hs16 := s.isLt
  have hr := r.isLt
  rw [Blocks.xblk_apply m c t p r R ⟨256 * s.val + r.val, by omega⟩ hR (by show 256 * s.val + r.val = 256 * (t.val % 16) + r.val; rw [hs]),
    Blocks.x_apply,
    Blocks.qblk_apply m c t n (Tile.blk r) (Tile.plc r) o (blockOf ⟨256 * s.val + r.val, by omega⟩) (placeOf ⟨256 * s.val + r.val, by omega⟩) ho
      (by show (256 * s.val + r.val) / 32 = 8 * (t.val % 16) + r.val / 32; rw [hs]; omega)
      (by show (256 * s.val + r.val) % 32 = r.val % 32; omega),
    Blocks.q_apply,
    Blocks.sblk_apply m c t (Tile.blk r) n (blockOf ⟨256 * s.val + r.val, by omega⟩) o
      (by show (256 * s.val + r.val) / 32 = 8 * (t.val % 16) + r.val / 32; rw [hs]; omega) ho,
    Blocks.s_apply]
  rfl

/-- The output block at the last point of a run, at `(p, n)`: the flat layer at the block's row and column. -/
theorem out_apply (c : Dev nD) (t : Fin cfg0.N) (h1 : t.val % 16 = 15) (p : Fin 2048) (n : Fin 1024)
    (R : Fin 8192) (o : Fin 4096) (hR : R.val = 2048 * (t.val / 64) + p.val) (ho : o.val = 1024 * (t.val / 16 % 4) + n.val) :
    (outsAt0 m c t.val t.isLt).1 (ix2 p n) = flatOf m c (ix2 R o) := by
  have hN : t.val < 256 := lt_of_lt_of_eq t.isLt N_0
  rw [Fold.out_last m c t h1]
  refine (Tile.pay3_apply _ _ p n).trans ?_
  rw [Fold.acc_apply, Blocks.bblk_apply m c t n o ho, Blocks.b_apply, h1]
  show (0 + ∑ s ∈ Finset.range 16, Fold.prod m c (16 * (t.val / 16) + s) (ix2 p n)) + biasOf m c (ix1 o)
    = (∑ I : Fin 4096, xOf m c (ix3 (batchOf R) (posOf R) I) * weight (scOf m c) (qOf m c) o I) + biasOf m c (ix1 o)
  congr 1
  refine tiles_sum _ (fun s => Fold.prod m c (16 * (t.val / 16) + s) (ix2 p n)) fun s => ?_
  have hs16 := s.isLt
  exact prod_apply m c ⟨16 * (t.val / 16) + s.val, lt_of_lt_of_eq (by omega : 16 * (t.val / 16) + s.val < 256) (show (256 : ℕ) = cfg0.N from N_0.symm)⟩ s
    (by show (16 * (t.val / 16) + s.val) % 16 = s.val; omega) p n R o
    (by show R.val = 2048 * ((16 * (t.val / 16) + s.val) / 64) + p.val; rw [hR]; omega)
    (by show o.val = 1024 * ((16 * (t.val / 16) + s.val) / 16 % 4) + n.val; rw [ho]; omega)

/-- What a point writes back is its block of the flat layer. -/
theorem flushed_eq (c : Dev nD) (t : Fin cfg0.N) (hf : (cfg0.win 4).flush t = true) :
    (dats m 0 c).flushed 4 t = ((cfg0.win 4).blk t).view.read (Elt Ideal) (flatOf m c) := by
  have h1 : t.val % 16 = 15 := (flush0_4 t).mp hf
  have hN : t.val < 256 := lt_of_lt_of_eq t.isLt N_0
  show (cfg0.win 4).cut (grid0.coords t) ((dats m 0 c).after 4 t) = _
  rw [after0_4]
  funext j
  obtain ⟨p, n, rfl⟩ : ∃ (p : Fin 2048) (n : Fin 1024), j = ix2 p n := ⟨j 0, j 1, eq_ix2 j⟩
  show (outsAt0 m c t.val t.isLt).1 (ix2 p n) = flatOf m c (((cfg0.win 4).blk t).view.emb (ix2 p n))
  have hp := p.isLt
  have hn := n.isLt
  rw [out_apply m c t h1 p n ⟨2048 * (t.val / 64) + p.val, by omega⟩ ⟨1024 * (t.val / 16 % 4) + n.val, by omega⟩ rfl rfl]
  obtain ⟨e0, e1⟩ := Blocks.index_o t
  congr 1
  funext a
  apply Fin.ext
  match a with
  | ⟨0, _⟩ => show 2048 * (t.val / 64) + p.val = win0_4.index t 0 * 2048 + 1 * p.val; rw [e0]; omega
  | ⟨1, _⟩ => show 1024 * (t.val / 16 % 4) + n.val = win0_4.index t 1 * 1024 + 1 * n.val; rw [e1]; omega

/-- Every entry of the array lies in the block of one writing point: the last point of the run of its row and column tiles. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, ht⟩ : ∃ t : Fin cfg0.N, t.val = ((i 0).val / 2048 * 4 + (i 1).val / 1024) * 16 + 15 :=
    ⟨⟨((i 0).val / 2048 * 4 + (i 1).val / 1024) * 16 + 15, by rw [show cfg0.N = 256 from N_0]; omega⟩, rfl⟩
  refine ⟨t, (flush0_4 t).mpr (by rw [ht]; omega), ?_⟩
  show i ∈ ((View.whole main_v3).slice (win0_4.rect t)).set
  rw [View.set_slice_whole, Rect.mem_set_unit]
  obtain ⟨e0, e1⟩ := Blocks.index_o t
  intro a
  match a with
  | ⟨0, _⟩ =>
    show win0_4.index t 0 * 2048 ≤ (i 0).val ∧ (i 0).val < win0_4.index t 0 * 2048 + 2048
    rw [e0, ht]; omega
  | ⟨1, _⟩ =>
    show win0_4.index t 1 * 1024 ≤ (i 1).val ∧ (i 1).val < win0_4.index t 1 * 1024 + 1024
    rw [e1, ht]; omega

/-- The output array after the run is the flat layer. -/
theorem final (c : Dev nD) : (dats m 0 c).arrAt 4 cfg0.N = flatOf m c :=
  (dats m 0 c).arrAt_eq_of_cover 4 (flatOf m c) (flushed_eq m c) cover

/-- The flat layer reshaped to 2 × 4096 × 4096 is the layer. -/
theorem reshape_flat (c : Dev nD) :
    shapeCast S2x4096x4096 (flatOf m c) shapeCasts_S8192x4096_S2x4096x4096 = layerOf m c := by
  funext i
  obtain ⟨b, s, o, rfl⟩ : ∃ (b : Fin 2) (s o : Fin 4096), i = ix3 b s o := ⟨i 0, i 1, i 2, eq_ix3 i⟩
  have hb := b.isLt
  have hs := s.isLt
  refine (shapeCast_apply _ shapeCasts_S8192x4096_S2x4096x4096 (ix3 b s o) (ix2 ⟨4096 * b.val + s.val, by omega⟩ o) ?_).trans ?_
  · rw [Shape.rowMajor_val_three, Shape.rowMajor_val_two]
    show (4096 * b.val + s.val) * 4096 + o.val = (b.val * 4096 + s.val) * 4096 + o.val
    omega
  exact flat_eq_layer _ _ _ _ b s o _ rfl

/-- The result buffer after the host's reshape of the output array. -/
theorem tail_eq (c : Dev nD) :
    Pipeline.afterTail₀ cfgs (dats m) 0 (V0 m) [hostOps1] c main_v4 = layerOf m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = flatOf m c := (Pipeline.withArrays_arr spec0 launch0.win.arr_inj c _ _ 4).trans (final m c)
  refine Eq.trans ?_ (reshape_flat m c)
  exact congrArg (fun A : S8192x4096.Idx → EReal => shapeCast S2x4096x4096 A shapeCasts_S8192x4096_S2x4096x4096) e

end Cert.KernelIdeal.Result

end
-- ==== Proof.Claims.lean ====
/-
  The five claims.

  The kernel's run ends with the result buffer at the layer of the argument arrays and the arguments as launched;
  the reference's run ends with its result at the same layer of arguments that agree. The three frames are the two
  generated frame runs and the reference's run with its result dropped, and the idealization rewrote nothing.
-/
import proofs.«180002_j41317585388031_1_alg».proof.Defs
import proofs.«180002_j41317585388031_1_alg».proof.Proof.Gen.Kernel.Frame
import proofs.«180002_j41317585388031_1_alg».proof.Proof.Gen.KernelIdeal.Frame
import proofs.«180002_j41317585388031_1_alg».proof.Proof.Gen.ReferenceIdeal
import proofs.«180002_j41317585388031_1_alg».proof.Proof.Gen.ReferenceIdeal.Run
import proofs.«180002_j41317585388031_1_alg».proof.Proof.Gen.ReferenceIdeal.Read
import proofs.«180002_j41317585388031_1_alg».proof.Proof.Gen.Pre_finite_inputs
import proofs.«180002_j41317585388031_1_alg».proof.Proof.RefValue
import proofs.«180002_j41317585388031_1_alg».proof.Proof.Result

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The kernel's run, read: the result at the layer of the arguments, the arguments unchanged. -/
theorem run : θ_run defs (onTc (τ := τ) (main (F := Ideal))) ⟨m, fun _ => 0, ρ⟩ (fun r => ∀ c : Dev nD,
      r.2.mem ((c.tc : Thread nD τ).loc main_v4) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Result

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of arguments that agree. -/
theorem algebraic : Cert.algebraic_KernelIdeal_ReferenceIdeal := by
  intro m ρ m' ρ' _ hagree
  refine ⟨fun c => Cert.KernelIdeal.Result.layerOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2.1,
    (hagree c).2.2.1, (hagree c).2.2.2]

end Cert.Proof.Claims

end
-- ==== Proof.lean ====
/-
  A quantized linear layer: activations `x (b, s, I)`, a weight matrix stored as 8-bit-style codes with one scale
  per block of 32 columns, and a bias. Both programs compute
  `out (b, s, o) = (∑ I, x (b, s, I) * ((code (o, I / 32, I % 32) - 128) * scale (o, I / 32))) + bias o`
  over the extended reals. The kernel flattens the leading axes, tiles the product 4 × 4 × 16, and walks the 4096
  columns in sixteen tiles of 256, adding each tile's partial product to an accumulator that starts at zero and
  adding the bias after the last; the reference dequantizes the whole matrix and contracts once. The two agree
  because a sum over 4096 columns is the sum over sixteen tiles of the sums inside each tile, zero is neutral, and
  the two factors of a weight may be written in either order: commutativity and associativity only, so no finiteness
  of the inputs is used.

  Proof/Spec.lean states the function and the regrouping law; Proof/Tile.lean reads the body's arithmetic at an
  index; Proof/Pieces.lean, Proof/Fold.lean and Proof/Blocks.lean say what the accumulator and the output block hold
  after each grid point and which entries of the arrays each block reads; Proof/Result.lean puts the blocks together
  and follows the reshape after the region; Proof/RefValue.lean reads the reference; Proof/Claims.lean states the runs.
-/
import proofs.«180002_j41317585388031_1_alg».proof.Defs
import proofs.«180002_j41317585388031_1_alg».proof.Proof.Gen.Kernel
import proofs.«180002_j41317585388031_1_alg».proof.Proof.Gen.Kernel.Skeleton
import proofs.«180002_j41317585388031_1_alg».proof.Proof.Gen.Kernel.Launch
import proofs.«180002_j41317585388031_1_alg».proof.Proof.Gen.Kernel.Points
import proofs.«180002_j41317585388031_1_alg».proof.Proof.Gen.Kernel.Frame
import proofs.«180002_j41317585388031_1_alg».proof.Proof.Gen.KernelIdeal
import proofs.«180002_j41317585388031_1_alg».proof.Proof.Gen.KernelIdeal.Skeleton
import proofs.«180002_j41317585388031_1_alg».proof.Proof.Gen.KernelIdeal.Launch
import proofs.«180002_j41317585388031_1_alg».proof.Proof.Gen.KernelIdeal.Points
import proofs.«180002_j41317585388031_1_alg».proof.Proof.Gen.KernelIdeal.Frame
import proofs.«180002_j41317585388031_1_alg».proof.Proof.Gen.ReferenceIdeal
import proofs.«180002_j41317585388031_1_alg».proof.Proof.Gen.Pre_finite_inputs
import proofs.«180002_j41317585388031_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
